-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S8x16x4096 : Shape := ⟨3, ![8, 16, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S8x16x4096 : S_.BroadcastsInDim S8x16x4096 (![] : Fin 0 → Fin S8x16x4096.rank)
  reducesTo_S8x16x4096_S_d0_1_2 : S8x16x4096.ReducesTo [0, 1, 2] S_

variable [Facts]

def fn {F : FTy → Type} [FloatOps F] (main_arg0 : FVec F S4x4096x4096 .f32) (main_arg1 : FVec F S8x16x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S8x16x4096 .f32 := Host.absf main_arg1
  let main_cst_0 : FVec F S_ .f32 := constant S_ .f32 0x7F800000#32
  let main_v5 : FVec F S8x16x4096 .f32 := broadcastInDim S8x16x4096 ![] bcast_S_S8x16x4096 main_cst_0
  let main_v6 : IVec S8x16x4096 1 := cmpf .olt main_v4 main_v5
  let main_c_1 : IVec S_ 1 := constantI S_ 1 1#1
  let main_v7 : IVec S_ 1 := (fun x v => Host.reduce IntOp.andi x v reducesTo_S8x16x4096_S_d0_1_2 h_S_) main_v6 main_c_1
  let main_v8 : IVec S_ 1 := andi main_v3 main_v7
  main_v8
-- ==== Kernel.lean ====
abbrev S4x4096x4096 : Shape := ⟨3, ![4, 4096, 4096]⟩
abbrev S8x16x4096 : Shape := ⟨3, ![8, 16, 4096]⟩
abbrev S16384x4096 : Shape := ⟨2, ![16384, 4096]⟩
abbrev S128x4096 : Shape := ⟨2, ![128, 4096]⟩
abbrev S4096x128 : Shape := ⟨2, ![4096, 128]⟩
abbrev S16384x128 : Shape := ⟨2, ![16384, 128]⟩
abbrev S512x4096 : Shape := ⟨2, ![512, 4096]⟩
abbrev S512x128 : Shape := ⟨2, ![512, 128]⟩
abbrev S4x4096x8x16 : Shape := ⟨4, ![4, 4096, 8, 16]⟩
abbrev S8x4x4096x16 : Shape := ⟨4, ![8, 4, 4096, 16]⟩

abbrev nBuf : Space → Nat
  | .hbm => 9
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S8x16x4096, .f32⟩
  | .hbm, ⟨2, _⟩ => ⟨S16384x4096, .f32⟩
  | .hbm, ⟨3, _⟩ => ⟨S128x4096, .f32⟩
  | .hbm, ⟨4, _⟩ => ⟨S4096x128, .f32⟩
  | .hbm, ⟨5, _⟩ => ⟨S4096x128, .bf16⟩
  | .hbm, ⟨6, _⟩ => ⟨S16384x128, .f32⟩
  | .hbm, ⟨7, _⟩ => ⟨S4x4096x8x16, .f32⟩
  | .hbm, ⟨8, _⟩ => ⟨S8x4x4096x16, .f32⟩
  | .local _ .vmem, ⟨0, _⟩ => ⟨S512x4096, .f32⟩
  | .local _ .vmem, ⟨1, _⟩ => ⟨S512x4096, .f32⟩
  | .local _ .vmem, ⟨2, _⟩ => ⟨S4096x128, .bf16⟩
  | .local _ .vmem, ⟨3, _⟩ => ⟨S512x128, .f32⟩
  | .local _ .vmem, ⟨4, _⟩ => ⟨S512x128, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096x4096_S16384x4096 : S4x4096x4096.ShapeCasts S16384x4096
  shapeCasts_S8x16x4096_S128x4096 : S8x16x4096.ShapeCasts S128x4096
  transposes_S128x4096_S4096x128_1_0 : S128x4096.Transposes [1, 0] S4096x128
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S512x128_S512x128_0_0 : ∀ a, (![0, 0] : Fin 2 → Nat) a + S512x128.size a ≤ S512x128.size a
  h_S512x128 : 0 < S512x128.numel
  shapeCasts_S16384x128_S4x4096x8x16 : S16384x128.ShapeCasts S4x4096x8x16
  transposes_S4x4096x8x16_S8x4x4096x16_2_0_1_3 : S4x4096x8x16.Transposes [2, 0, 1, 3] S8x4x4096x16
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .bf16 = 32 ∨ (Rect.block (s := S4096x128) S4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S16384x128.size a
  hwx0_2 : ∀ i : grid0.Coords, EltTy.bits .f32 = 32 ∨ (Rect.block (s := S16384x128) S512x128.size (cc0_transform_2 i) (hinb0_2 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S8x16x4096 : Shape := ⟨3, ![8, 16, 4096]⟩
abbrev S8x16x4x4096 : Shape := ⟨4, ![8, 16, 4, 4096]⟩
abbrev S8x4x4096x16 : Shape := ⟨4, ![8, 4, 4096, 16]⟩

abbrev nBuf : Space → Nat
  | .hbm => 4
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S8x16x4096, .f32⟩
  | .hbm, ⟨2, _⟩ => ⟨S8x16x4x4096, .f32⟩
  | .hbm, ⟨3, _⟩ => ⟨S8x4x4096x16, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S8x16x4x4096_S8x4x4096x16_0_2_3_1 : S8x16x4x4096.Transposes [0, 2, 3, 1] S8x4x4096x16
  dot_S8x16x4096_S4x4096x4096_S8x16x4x4096_2_2_01_01_n_n_wf : DotDims.WF S8x16x4096 S4x4096x4096 S8x16x4x4096 [2] [2] [0, 1] [0, 1] [] []

variable [Facts₀]

def dot_S8x16x4096_S4x4096x4096_S8x16x4x4096_2_2_01_01_n_n : DotDims S8x16x4096 S4x4096x4096 S8x16x4x4096 where
  lhsContracting := [2]
  rhsContracting := [2]
  lhsNonContracting := [0, 1]
  rhsNonContracting := [0, 1]
  lhsBatch := []
  rhsBatch := []
  wf := dot_S8x16x4096_S4x4096x4096_S8x16x4x4096_2_2_01_01_n_n_wf

class Facts : Prop extends Facts₀ where

variable [Facts]
-- ==== Proof.Spec.lean ====
/-
  What both programs compute. For each of eight experts e the activations x : [4, 4096, 4096] are multiplied by that
  expert's weight W[e] : [16, 4096], contracting the 4096 features:

      out[e, b, s, o] = ∑ k, x[b, s, k] · W[e, o, k]                                   (`expertProduct`)

  The kernel obtains it from ONE flat matrix product: the activations as a [16384, 4096] matrix X (row r = b·4096 + s)
  times the weights stacked as a [4096, 128] matrix Wt (column n = e·16 + o):

      flat[r, n] = ∑ k, X[r, k] · Wt[k, n]                                             (`flatProduct`)

  Both are finite sums of products of extended reals; no law beyond commutativity of the product joins them, so
  nothing here needs the inputs to be finite.
-/
import Idealize.ShloMosaic.PureOps.Ideal
import Idealize.ShloMosaic.Lib.ValueIdx

noncomputable section

namespace Cert.Spec

open Idealize.ShloMosaic Idealize.ShloMosaic.ValueIdx

/-- The flat product of a [16384, 4096] matrix with a [4096, 128] matrix, entry by entry. -/
def flatProduct (X : (⟨2, ![16384, 4096]⟩ : Shape).Idx → EReal) (Wt : (⟨2, ![4096, 128]⟩ : Shape).Idx → EReal) :
    (⟨2, ![16384, 128]⟩ : Shape).Idx → EReal :=
  fun j => ∑ k : Fin 4096, X (ix2 (j 0) k) * Wt (ix2 k (j 1))

/-- The per-expert product: entry (e, b, s, o) contracts row (b, s) of the activations with row (e, o) of the weights. -/
def expertProduct (x : (⟨3, ![4, 4096, 4096]⟩ : Shape).Idx → EReal) (w : (⟨3, ![8, 16, 4096]⟩ : Shape).Idx → EReal) :
    (⟨4, ![8, 4, 4096, 16]⟩ : Shape).Idx → EReal :=
  fun i => ∑ k : Fin 4096, x (ix3 (i 1) (i 2) k) * w (ix3 (i 0) (i 3) k)

/-- The flat product at an entry given by its coordinates. -/
theorem flatProduct_apply (X : (⟨2, ![16384, 4096]⟩ : Shape).Idx → EReal) (Wt : (⟨2, ![4096, 128]⟩ : Shape).Idx → EReal)
    (r : Fin 16384) (n : Fin 128) :
    flatProduct X Wt (ix2 r n) = ∑ k : Fin 4096, X (ix2 r k) * Wt (ix2 k n) := rfl

/-- The per-expert product at an entry given by its coordinates. -/
theorem expertProduct_apply (x : (⟨3, ![4, 4096, 4096]⟩ : Shape).Idx → EReal) (w : (⟨3, ![8, 16, 4096]⟩ : Shape).Idx → EReal)
    (e : Fin 8) (b : Fin 4) (s : Fin 4096) (o : Fin 16) :
    expertProduct x w (ix4 e b s o) = ∑ k : Fin 4096, x (ix3 b s k) * w (ix3 e o k) := rfl

end Cert.Spec

end
-- ==== Proof.Payload.lean ====
/-
  The kernel body's one store, read entry by entry at the ideal values. The body loads a [512, 4096] block of the
  activations and the whole [4096, 128] stacked weight, narrows the activations' format (no change of value on the
  extended reals) and multiplies the two into a zero accumulator. So entry (p, q) of what it stores is

      ∑ k, block[p, k] · weight[k, q].
-/
import proofs.«130673_j10015863734800_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-! ## The matrix product's operand indices, coordinate by coordinate

Output entry `j = (p, q)` and contraction position `k` read the left operand at `(p, k)` and the right at `(k, q)`. -/

theorem lhs_row (j : S512x128.Idx) (k : dot_S512x4096_S4096x128_S512x128_1_0_0_1_n_n.contr.Idx) :
    (dot_S512x4096_S4096x128_S512x128_1_0_0_1_n_n.lhsIdx j k 0).val = (j 0).val := by
  unfold DotDims.lhsIdx
  rw [dif_neg (show ¬(0 : Fin S512x4096.rank) ∈ dot_S512x4096_S4096x128_S512x128_1_0_0_1_n_n.lhsBatch by decide),
    dif_pos (show (0 : Fin S512x4096.rank) ∈ dot_S512x4096_S4096x128_S512x128_1_0_0_1_n_n.lhsNonContracting by decide)]
  rfl

theorem lhs_col (j : S512x128.Idx) (k : dot_S512x4096_S4096x128_S512x128_1_0_0_1_n_n.contr.Idx) :
    (dot_S512x4096_S4096x128_S512x128_1_0_0_1_n_n.lhsIdx j k 1).val = (k ⟨0, by decide⟩).val :=
  dot_S512x4096_S4096x128_S512x128_1_0_0_1_n_n.lhsIdx_val_of_single rfl j k

theorem rhs_row (j : S512x128.Idx) (k : dot_S512x4096_S4096x128_S512x128_1_0_0_1_n_n.contr.Idx) :
    (dot_S512x4096_S4096x128_S512x128_1_0_0_1_n_n.rhsIdx j k 0).val = (k ⟨0, by decide⟩).val :=
  dot_S512x4096_S4096x128_S512x128_1_0_0_1_n_n.rhsIdx_val_of_single rfl j k

theorem rhs_col (j : S512x128.Idx) (k : dot_S512x4096_S4096x128_S512x128_1_0_0_1_n_n.contr.Idx) :
    (dot_S512x4096_S4096x128_S512x128_1_0_0_1_n_n.rhsIdx j k 1).val = (j 1).val := by
  unfold DotDims.rhsIdx
  rw [dif_neg (show ¬(1 : Fin S4096x128.rank) ∈ dot_S512x4096_S4096x128_S512x128_1_0_0_1_n_n.rhsBatch by decide),
    dif_pos (show (1 : Fin S4096x128.rank) ∈ dot_S512x4096_S4096x128_S512x128_1_0_0_1_n_n.rhsNonContracting by decide)]
  rfl

/-! ## The stored block -/

/-- Entry `(p, q)` of the body's stored block: row `p` of the activation block against column `q` of the weight, summed
    over the 4096 features. The format change and the two same-shape casts are the identity; the accumulator is zero. -/
theorem stored_apply (x0 : Vec Ideal S512x4096 .f32) (x1 : Vec Ideal S4096x128 .bf16) (p : Fin 512) (q : Fin 128) :
    k0_pay1 (F := Ideal) x0 x1 (ix2 p q) = ∑ k : Fin 4096, x0 (ix2 p k) * x1 (ix2 k q) := by
  unfold k0_pay1
  simp only [matmul]
  rw [Ideal.matmul_constant_zero_apply,
    ← Equiv.sum_comp (contrEquiv1 dot_S512x4096_S4096x128_S512x128_1_0_0_1_n_n 4096 rfl rfl).symm]
  refine Finset.sum_congr rfl fun k _ => ?_
  have hk := contrEquiv1_symm_val dot_S512x4096_S4096x128_S512x128_1_0_0_1_n_n 4096 rfl rfl k
  have el : dot_S512x4096_S4096x128_S512x128_1_0_0_1_n_n.lhsIdx (ix2 p q)
      ((contrEquiv1 dot_S512x4096_S4096x128_S512x128_1_0_0_1_n_n 4096 rfl rfl).symm k) = ix2 p k :=
    funext fun a => Fin.ext (by
      match a with
      | ⟨0, _⟩ => exact lhs_row _ _
      | ⟨1, _⟩ => exact (lhs_col _ _).trans hk)
  have er : dot_S512x4096_S4096x128_S512x128_1_0_0_1_n_n.rhsIdx (ix2 p q)
      ((contrEquiv1 dot_S512x4096_S4096x128_S512x128_1_0_0_1_n_n 4096 rfl rfl).symm k) = ix2 k q :=
    funext fun a => Fin.ext (by
      match a with
      | ⟨0, _⟩ => exact (rhs_row _ _).trans hk
      | ⟨1, _⟩ => exact rhs_col _ _)
  rw [el, er]
  show shapeCast S512x4096 x0 shapeCasts_S512x4096_S512x4096 (ix2 p k)
      * shapeCast S4096x128 x1 shapeCasts_S4096x128_S4096x128 (ix2 k q) = _
  rw [shapeCast_self, shapeCast_self]

end Cert.KernelIdeal.Payload

end
-- ==== Proof.FlatValue.lean ====
/-
  The launch's output array, at the ideal values, is the flat product of the two matrices the launch finds.

  The grid has 32 points. At point t the activation window holds rows 512·t … 512·t + 511 of the activation matrix
  (all 4096 columns), the weight window holds the whole stacked weight matrix at every point, and the output window is
  rows 512·t … 512·t + 511 of the [16384, 128] output. The body stores, at (p, q) of its block, row p of the activation
  block against column q of the weight: that is entry (512·t + p, q) of the flat product. The 32 row blocks tile the
  16384 rows (row r lies in block r / 512), so after the last write-back the whole output array is the flat product.
-/
import proofs.«130673_j10015863734800_1_alg».proof.Proof.Gen.KernelIdeal.Frame
import proofs.«130673_j10015863734800_1_alg».proof.Proof.Spec
import proofs.«130673_j10015863734800_1_alg».proof.Proof.Payload
import Idealize.ShloMosaic.Lib.Pipeline.Value
import Idealize.ShloMosaic.Lib.ValueIdx

noncomputable section

namespace Cert.KernelIdeal.FlatValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## One stored entry, over any block contents -/

/-- If row `p` of the loaded activation block is row `r` of a matrix `X`, and column `q` of the loaded weight is column `q`
    of a matrix `Wt`, then the body's stored entry `(p, q)` is entry `(r, q)` of the flat product of `X` and `Wt`. -/
theorem stored_is_flat (X : S16384x4096.Idx → EReal) (Wt : S4096x128.Idx → EReal)
    (x0 : Vec Ideal S512x4096 .f32) (x1 : Vec Ideal S4096x128 .bf16) (p : Fin 512) (q : Fin 128) (r : Fin 16384)
    (hx : ∀ k : Fin 4096, x0 (ix2 p k) = X (ix2 r k)) (hw : ∀ k : Fin 4096, x1 (ix2 k q) = Wt (ix2 k q)) :
    k0_pay1 (F := Ideal) x0 x1 (ix2 p q) = Cert.Spec.flatProduct X Wt (ix2 r q) := by
  rw [Cert.KernelIdeal.Payload.stored_apply, Cert.Spec.flatProduct_apply]
  exact Finset.sum_congr rfl fun k _ => by rw [hx k, hw k]

/-! ## The windows' block indices over the grid -/

theorem zero_offsets : (![0, 0] : Fin 2 → Nat) = fun _ => 0 := funext fun a => by fin_cases a <;> rfl

/-- Decided over the 32 points: the activation window and the output window are at the same row block and at column
    block 0; the weight window stays at block (0, 0); the row block is below 32. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 31 :=
  (by decide +kernel : ∀ t : Fin grid0.N, _)

/-- Every one of the 32 row blocks is some point's. -/
theorem index_onto : ∀ b : Fin 32, ∃ t : Fin cfg0.N, win0_2.index t = ![b.val, 0] :=
  (by decide +kernel : ∀ b : Fin 32, ∃ t : Fin grid0.N, win0_2.index t = ![b.val, 0])

/-! ## What a point writes back -/

/-- Point `t` writes back block `t` of the flat product of the activation matrix and the stacked weight matrix as the
    launch finds them. -/
theorem flushed_eq (c : Dev nD) (t : Fin cfg0.N) :
    (dats m 0 c).flushed 2 t
      = ((cfg0.win 2).blk t).view.read (Elt Ideal) (Cert.Spec.flatProduct (V m c main_v0) (V m c main_v3)) := by
  show (cfg0.win 2).cut (grid0.coords t) ((dats m 0 c).after 2 t) = _
  rw [after0_2]
  unfold out0_2
  rw [View.canon_unit_zero zero_offsets]
  simp only [View.ld_unit_zero (S := S512x4096) zero_offsets, View.ld_unit_zero (S := S4096x128) zero_offsets]
  obtain ⟨e0, e1, e2, e3, e4, e5⟩ := index_facts t
  funext j
  obtain ⟨p, q, rfl⟩ : ∃ (p : Fin 512) (q : Fin 128), j = ix2 p q := ⟨j 0, j 1, eq_ix2 j⟩
  have hp : p.val < 512 := p.isLt
  have hr : win0_2.index t (0 : Fin 2) * 512 + 1 * p.val < 16384 := by omega
  refine (stored_is_flat (V m c main_v0) (V m c main_v3) (iblk m c 0 t) (iblk m c 1 t) p q
    ⟨win0_2.index t (0 : Fin 2) * 512 + 1 * p.val, hr⟩ ?_ ?_).trans ?_
  · intro k
    show V m c main_v0 (((cfg0.win 0).blk t).view.emb (ix2 p k)) = V m c main_v0 (ix2 ⟨win0_2.index t (0 : Fin 2) * 512 + 1 * p.val, hr⟩ k)
    refine congrArg _ (funext fun a => Fin.ext ?_)
    match a with
    | ⟨0, _⟩ => show win0_0.index t (0 : Fin 2) * 512 + 1 * p.val = win0_2.index t (0 : Fin 2) * 512 + 1 * p.val; omega
    | ⟨1, _⟩ => show win0_0.index t (1 : Fin 2) * 4096 + 1 * k.val = k.val; omega
  · intro k
    show V m c main_v3 (((cfg0.win 1).blk t).view.emb (ix2 k q)) = V m c main_v3 (ix2 k q)
    refine congrArg _ (funext fun a => Fin.ext ?_)
    match a with
    | ⟨0, _⟩ => show win0_1.index t (0 : Fin 2) * 4096 + 1 * k.val = k.val; omega
    | ⟨1, _⟩ => show win0_1.index t (1 : Fin 2) * 128 + 1 * q.val = q.val; omega
  · show Cert.Spec.flatProduct (V m c main_v0) (V m c main_v3) (ix2 ⟨win0_2.index t (0 : Fin 2) * 512 + 1 * p.val, hr⟩ q)
      = Cert.Spec.flatProduct (V m c main_v0) (V m c main_v3) (((cfg0.win 2).blk t).view.emb (ix2 p q))
    refine congrArg _ (funext fun a => Fin.ext ?_)
    match a with
    | ⟨0, _⟩ => show win0_2.index t (0 : Fin 2) * 512 + 1 * p.val = win0_2.index t (0 : Fin 2) * 512 + 1 * p.val; rfl
    | ⟨1, _⟩ => show q.val = win0_2.index t (1 : Fin 2) * 128 + 1 * q.val; omega

/-! ## The row blocks tile the output -/

/-- An entry of the output array is in point `t`'s block iff each coordinate is in the block's range on its axis. -/
theorem mem_block (t : Fin cfg0.N) (i : S16384x128.Idx) :
    i ∈ ((cfg0.win 2).blk t).view.set ↔ ∀ a : Fin 2, win0_2.index t a * S512x128.size a ≤ (i a).val
      ∧ (i a).val < win0_2.index t a * S512x128.size a + S512x128.size a := by
  show i ∈ ((View.whole main_v4).slice (win0_2.rect t)).set ↔ _
  rw [View.set_slice_whole, Rect.mem_set_unit]
  exact Iff.rfl

/-- Every entry of the output array is in the block of the point whose row block is its row divided by 512. -/
theorem covered (i : S16384x128.Idx) :
    ∃ t : Fin cfg0.N, (cfg0.win 2).flush t = true ∧ i ∈ ((cfg0.win 2).blk t).view.set := by
  have hi0 : (i 0).val < 16384 := (i 0).isLt
  have hi1 : (i 1).val < 128 := (i 1).isLt
  obtain ⟨t, ht⟩ := index_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 128 ≤ (i 1).val ∧ (i 1).val < win0_2.index t (1 : Fin 2) * 128 + 128; omega

/-! ## The output array after the launch -/

/-- After the last write-back the launch's output array is the flat product. -/
theorem flat_array (c : Dev nD) :
    (dats m 0 c).arrAt 2 cfg0.N = Cert.Spec.flatProduct (V m c main_v0) (V m c main_v3) :=
  (dats m 0 c).arrAt_eq_of_cover 2 _ (fun t _ => flushed_eq m c t) covered

end Cert.KernelIdeal.FlatValue

end
-- ==== Proof.HostStages.lean ====
/-
  The host lines around the one kernel launch, at the ideal values.

  Before the launch: the activations x : [4, 4096, 4096] are reshaped to the matrix X : [16384, 4096], so row
  r = b·4096 + s of X is row (b, s) of x; the weights W : [8, 16, 4096] are reshaped to [128, 4096], transposed to
  [4096, 128] and narrowed in format (no change of value), so column n = e·16 + o of that matrix is row (e, o) of W.

  After the launch: the flat result [16384, 128] is reshaped to [4, 4096, 8, 16] and its axes permuted to
  [8, 4, 4096, 16], so entry (e, b, s, o) of the program's result is entry (b·4096 + s, e·16 + o) of the flat one.
-/
import proofs.«130673_j10015863734800_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.HostStages

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## Before the launch -/

/-- The activation matrix the launch finds is the argument, reshaped. -/
theorem found_x (c : Dev nD) :
    (V m c main_v0 : S16384x4096.Idx → EReal)
      = shapeCast S16384x4096 (m ((c : Thread nD τ).loc main_arg0) : S4x4096x4096.Idx → EReal)
          shapeCasts_S4x4096x4096_S16384x4096 := by
  show StableHlo.after hostOps0 (fun b => m (c, b)) (Proc.devRef .tc main_v0) = _
  after_results
  rfl

/-- Row `r = b·4096 + s` of the activation matrix is row `(b, s)` of the argument. -/
theorem found_x_apply (c : Dev nD) (r : Fin 16384) (k : Fin 4096) (b : Fin 4) (s : Fin 4096)
    (hr : r.val = b.val * 4096 + s.val) :
    (V m c main_v0 : S16384x4096.Idx → EReal) (ix2 r k) = m ((c : Thread nD τ).loc main_arg0) (ix3 b s k) := by
  rw [found_x]
  exact shapeCast_apply _ _ _ _ (by
    show (S4x4096x4096.rowMajor (ix3 b s k)).val = (S16384x4096.rowMajor (ix2 r k)).val
    rw [Shape.rowMajor_val_three, Shape.rowMajor_val_two]
    show (b.val * 4096 + s.val) * 4096 + k.val = r.val * 4096 + k.val
    rw [hr])

/-- The stacked weight matrix the launch finds is the argument reshaped, transposed and narrowed in format. -/
theorem found_w (c : Dev nD) :
    (V m c main_v3 : S4096x128.Idx → EReal)
      = truncf (F := Ideal) .bf16 (transpose S4096x128 [1, 0]
          (shapeCast S128x4096 (m ((c : Thread nD τ).loc main_arg1) : S8x16x4096.Idx → EReal) shapeCasts_S8x16x4096_S128x4096)
          transposes_S128x4096_S4096x128_1_0) bitsLt_bf16_f32 := by
  show StableHlo.after hostOps0 (fun b => m (c, b)) (Proc.devRef .tc main_v3) = _
  after_results
  rfl

/-- Column `n = e·16 + o` of the stacked weight matrix is row `(e, o)` of the argument. -/
theorem found_w_apply (c : Dev nD) (k : Fin 4096) (n : Fin 128) (e : Fin 8) (o : Fin 16)
    (hn : n.val = e.val * 16 + o.val) :
    (V m c main_v3 : S4096x128.Idx → EReal) (ix2 k n) = m ((c : Thread nD τ).loc main_arg1) (ix3 e o k) := by
  rw [found_w, truncf_apply]
  refine (transpose_apply [1, 0] _ transposes_S128x4096_S4096x128_1_0 (ix2 k n) (ix2 n k)
    (fun a => match a with | ⟨0, _⟩ => rfl | ⟨1, _⟩ => rfl)).trans ?_
  exact shapeCast_apply _ _ _ _ (by
    show (S8x16x4096.rowMajor (ix3 e o k)).val = (S128x4096.rowMajor (ix2 n k)).val
    rw [Shape.rowMajor_val_three, Shape.rowMajor_val_two]
    show (e.val * 16 + o.val) * 4096 + k.val = n.val * 4096 + k.val
    rw [hn])

/-! ## After the launch -/

/-- The program's result is the launch's flat output array, reshaped and with its axes permuted. -/
theorem tail_result (c : Dev nD) :
    Pipeline.afterTail₀ cfgs (dats m) 0 (V0 m) [hostOps1] c main_v6
      = transpose S8x4x4096x16 [2, 0, 1, 3]
          (shapeCast S4x4096x8x16 ((dats m 0 c).arrAt 2 cfg0.N) shapeCasts_S16384x128_S4x4096x8x16)
          transposes_S4x4096x8x16_S8x4x4096x16_2_0_1_3 := by
  unfold Pipeline.afterTail₀
  show StableHlo.after hostOps1 _ (Proc.devRef .tc main_v6) = _
  after_results
  have hw : Pipeline.withArrays (cfgs 0).spec c (V0 m c) (fun w => (dats m 0 c).arrAt w (cfgs 0).N)
      (Proc.devRef .tc main_v4) = (dats m 0 c).arrAt 2 cfg0.N :=
    Pipeline.withArrays_arr spec0 launch0.win.arr_inj c _ _ 2
  rw [hw]
  rfl

end Cert.KernelIdeal.HostStages

end
-- ==== Proof.KernelValue.lean ====
/-
  The idealized kernel program's result, at the ideal values, is the per-expert product of its arguments.

  Entry (e, b, s, o) of the result is entry (b·4096 + s, e·16 + o) of the launch's flat output (the reshape and the
  permutation after the launch). That flat entry is ∑ k, X[b·4096 + s, k] · Wt[k, e·16 + o] (the launch), and
  X[b·4096 + s, k] = x[b, s, k], Wt[k, e·16 + o] = W[e, o, k] (the reshapes and the transpose before the launch). So the
  entry is ∑ k, x[b, s, k] · W[e, o, k].
-/
import proofs.«130673_j10015863734800_1_alg».proof.Proof.FlatValue
import proofs.«130673_j10015863734800_1_alg».proof.Proof.HostStages

noncomputable section

namespace Cert.KernelIdeal.KernelValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- What the lines after the launch leave in the result buffer is the per-expert product of the argument arrays. -/
theorem result_eq (c : Dev nD) :
    Pipeline.afterTail₀ cfgs (dats m) 0 (V0 m) [hostOps1] c main_v6
      = Cert.Spec.expertProduct (m ((c : Thread nD τ).loc main_arg0)) (m ((c : Thread nD τ).loc main_arg1)) := by
  rw [Cert.KernelIdeal.HostStages.tail_result, Cert.KernelIdeal.FlatValue.flat_array]
  funext i
  obtain ⟨e, b, s, o, rfl⟩ : ∃ (e : Fin 8) (b : Fin 4) (s : Fin 4096) (o : Fin 16), i = ix4 e b s o :=
    ⟨i 0, i 1, i 2, i 3, eq_ix4 i⟩
  have he : e.val < 8 := e.isLt
  have hb : b.val < 4 := b.isLt
  have hs : s.val < 4096 := s.isLt
  have ho : o.val < 16 := o.isLt
  have hr : b.val * 4096 + s.val < 16384 := by omega
  have hn : e.val * 16 + o.val < 128 := by omega
  refine (transpose_apply [2, 0, 1, 3] _ transposes_S4x4096x8x16_S8x4x4096x16_2_0_1_3 (ix4 e b s o) (ix4 b s e o)
    (fun a => match a with | ⟨0, _⟩ => rfl | ⟨1, _⟩ => rfl | ⟨2, _⟩ => rfl | ⟨3, _⟩ => rfl)).trans ?_
  refine (shapeCast_apply _ shapeCasts_S16384x128_S4x4096x8x16 (ix4 b s e o)
    (ix2 (⟨b.val * 4096 + s.val, hr⟩ : Fin 16384) (⟨e.val * 16 + o.val, hn⟩ : Fin 128)) (by
      show (S16384x128.rowMajor _).val = (S4x4096x8x16.rowMajor _).val
      rw [Shape.rowMajor_val_two, Shape.rowMajor_val_four]
      show (b.val * 4096 + s.val) * 128 + (e.val * 16 + o.val) = ((b.val * 4096 + s.val) * 8 + e.val) * 16 + o.val
      omega)).trans ?_
  show (Cert.Spec.flatProduct (V m c main_v0) (V m c main_v3)
      (ix2 (⟨b.val * 4096 + s.val, hr⟩ : Fin 16384) (⟨e.val * 16 + o.val, hn⟩ : Fin 128)) : EReal)
    = Cert.Spec.expertProduct (m ((c : Thread nD τ).loc main_arg0)) (m ((c : Thread nD τ).loc main_arg1)) (ix4 e b s o)
  rw [Cert.Spec.flatProduct_apply, Cert.Spec.expertProduct_apply]
  exact Finset.sum_congr rfl fun k _ => by
    rw [Cert.KernelIdeal.HostStages.found_x_apply m c _ k b s rfl,
      Cert.KernelIdeal.HostStages.found_w_apply m c k _ e o rfl]

/-- Every weakly fair execution of the idealized kernel program terminates without fault, its result buffer holding the
    per-expert product of the argument arrays, and the argument arrays unchanged. -/
theorem run : θ_run defs (onTc (τ := τ) (main (F := Ideal))) ⟨m, fun _ => 0, ρ⟩ fun r => ∀ c : Dev nD,
      r.2.mem ((c.tc : Thread nD τ).loc main_v6)
        = Cert.Spec.expertProduct (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v6 (Pipeline.mem_restRefs_of main_v6 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KernelValue

end
-- ==== Proof.ReferenceValue.lean ====
/-
  The reference at the ideal values. It contracts the weights W : [8, 16, 4096] with the activations x : [4, 4096, 4096]
  over the features, giving [8, 16, 4, 4096], then permutes the axes to [8, 4, 4096, 16]. Entry (e, b, s, o) of its
  result is therefore ∑ k, W[e, o, k] · x[b, s, k]: the per-expert product with each product's factors exchanged.
-/
import proofs.«130673_j10015863734800_1_alg».proof.Proof.Gen.ReferenceIdeal.Read
import proofs.«130673_j10015863734800_1_alg».proof.Proof.Spec

noncomputable section

namespace Cert.ReferenceIdeal.RefValue

open Cert.ReferenceIdeal Cert.ReferenceIdeal.Read Idealize.ShloMosaic Idealize.ShloMosaic.ValueIdx

/-- The reference's result is the per-expert product of its arguments, entry by entry. The two sums range over the same
    features; each term is the same product with its factors in the other order. -/
theorem result_eq (x : S4x4096x4096.Idx → EReal) (w : S8x16x4096.Idx → EReal) :
    val_main_v1 (F := Ideal) x w = Cert.Spec.expertProduct x w := by
  funext i
  obtain ⟨e, b, s, o, rfl⟩ : ∃ (e : Fin 8) (b : Fin 4) (s : Fin 4096) (o : Fin 16), i = ix4 e b s o :=
    ⟨i 0, i 1, i 2, i 3, eq_ix4 i⟩
  rw [val_main_v1_apply, val_main_v0_apply, Cert.Spec.expertProduct_apply]
  refine Finset.sum_congr rfl fun k _ => ?_
  have el : lidx_main_v0 (idx_main_v1 (ix4 e b s o)) k = ix3 e o k :=
    funext fun a => Fin.ext (by match a with | ⟨0, _⟩ => rfl | ⟨1, _⟩ => rfl | ⟨2, _⟩ => rfl)
  have er : ridx_main_v0 (idx_main_v1 (ix4 e b s o)) k = ix3 b s k :=
    funext fun a => Fin.ext (by match a with | ⟨0, _⟩ => rfl | ⟨1, _⟩ => rfl | ⟨2, _⟩ => rfl)
  rw [el, er, mul_comm]

end Cert.ReferenceIdeal.RefValue

end
-- ==== Proof.lean ====
/-
  The kernel computes, for eight experts at once, out[e, b, s, o] = ∑ k, x[b, s, k] · W[e, o, k] over the 4096 features:
  it reshapes the activations to a [16384, 4096] matrix, stacks the experts' weights as the 128 columns of a
  [4096, 128] matrix, multiplies the two in 32 row blocks of 512 rows, and reshapes and permutes the [16384, 128] result
  to [8, 4, 4096, 16]. The reference contracts the weights with the activations directly and permutes the axes.

  On the extended reals both results are, entry by entry, the same finite sum of products, the reference's with each
  product's factors exchanged; commutativity of the product is the only law used, so the inputs' finiteness is not.

  The parts: `Proof/Spec.lean` states the two sums; `Proof/Payload.lean` reads the body's matrix product at an entry;
  `Proof/FlatValue.lean` shows the launch's output array is the flat product (each point writes its row block, the
  row blocks tile the rows); `Proof/HostStages.lean` reads the reshapes and transposes around the launch at an entry;
  `Proof/KernelValue.lean` joins them into the kernel program's run; `Proof/ReferenceValue.lean` reads the reference.
  The three frames are the programs' generated runs; the idealization rewrote nothing, so `preserves` is trivial.
-/
import proofs.«130673_j10015863734800_1_alg».proof.Defs
import proofs.«130673_j10015863734800_1_alg».proof.Proof.Gen.Kernel
import proofs.«130673_j10015863734800_1_alg».proof.Proof.Gen.Kernel.Skeleton
import proofs.«130673_j10015863734800_1_alg».proof.Proof.Gen.Kernel.Launch
import proofs.«130673_j10015863734800_1_alg».proof.Proof.Gen.Kernel.Points
import proofs.«130673_j10015863734800_1_alg».proof.Proof.Gen.Kernel.Frame
import proofs.«130673_j10015863734800_1_alg».proof.Proof.Gen.KernelIdeal
import proofs.«130673_j10015863734800_1_alg».proof.Proof.Gen.KernelIdeal.Skeleton
import proofs.«130673_j10015863734800_1_alg».proof.Proof.Gen.KernelIdeal.Launch
import proofs.«130673_j10015863734800_1_alg».proof.Proof.Gen.KernelIdeal.Points
import proofs.«130673_j10015863734800_1_alg».proof.Proof.Gen.KernelIdeal.Frame
import proofs.«130673_j10015863734800_1_alg».proof.Proof.Gen.ReferenceIdeal
import proofs.«130673_j10015863734800_1_alg».proof.Proof.Gen.Pre_finite_inputs
import proofs.«130673_j10015863734800_1_alg».proof.Proof.Gen.ReferenceIdeal.Run
import proofs.«130673_j10015863734800_1_alg».proof.Proof.Gen.ReferenceIdeal.Read
import proofs.«130673_j10015863734800_1_alg».proof.Proof.KernelValue
import proofs.«130673_j10015863734800_1_alg».proof.Proof.ReferenceValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernel_ideal : Cert.frame_KernelIdeal := fun m ρ _ => Cert.KernelIdeal.Gen.frame m ρ

/-- The idealized reference runs and leaves its arguments unchanged: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both idealized programs end with the per-expert product of the kernel
    program's arguments in their result buffers. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
